-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S16777216 : Shape := ⟨1, ![16777216]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S65536 .f32) (main_arg1 : FVec F S16777216 .f32) (main_arg2 : FVec F S65536 .f32) (main_arg3 : IVec S16777216 32) (main_arg4 : IVec S16777216 32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S65536 : Shape := ⟨1, ![65536]⟩
abbrev S16777216 : Shape := ⟨1, ![16777216]⟩
abbrev S_ : Shape := ⟨0, ![]⟩
abbrev S16777216x1 : Shape := ⟨2, ![16777216, 1]⟩
abbrev S131072x128 : Shape := ⟨2, ![131072, 128]⟩
abbrev S8192x128 : Shape := ⟨2, ![8192, 128]⟩

abbrev nBuf : Space → Nat
  | .hbm => 23
  | .vmem => 6
  | .smem => 0
  | _ => 0

abbrev bufTy : (tb : Table) → Fin (tcTables nBuf tb) → BufTy
  | .hbm, ⟨0, _⟩ => ⟨S65536, .f32⟩
  | .hbm, ⟨1, _⟩ => ⟨S16777216, .f32⟩
  | .hbm, ⟨2, _⟩ => ⟨S65536, .f32⟩
  | .hbm, ⟨3, _⟩ => ⟨S16777216, .i32⟩
  | .hbm, ⟨4, _⟩ => ⟨S16777216, .i32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S16777216, .f32⟩
  | .hbm, ⟨18, _⟩ => ⟨S_, .f32⟩
  | .hbm, ⟨19, _⟩ => ⟨S65536, .f32⟩
  | .hbm, ⟨20, _⟩ => ⟨S16777216x1, .i32⟩
  | .hbm, ⟨21, _⟩ => ⟨S65536, .f32⟩
  | .hbm, ⟨22, _⟩ => ⟨S65536, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  bcast_S_S65536 : S_.BroadcastsInDim S65536 (![] : Fin 0 → Fin S65536.rank)
  gather_S65536_S16777216x1_S16777216_n_0_n_n_0_1_1_wf : GatherDims.WF S65536 S16777216x1 S16777216 [] [0] [] [0] [] 1 ![1]
  scatter_S65536_S16777216x1_S16777216_n_0_0_1_wf : ScatterDims.WF S65536 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

abbrev win0_0 : Pipeline.Window sig grid0 :=
  Pipeline.Window.ofSpec (Memref.whole main_v7) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536 : Shape := ⟨1, ![65536]⟩
abbrev S16777216 : Shape := ⟨1, ![16777216]⟩
abbrev S_ : Shape := ⟨0, ![]⟩
abbrev S16777216x1 : Shape := ⟨2, ![16777216, 1]⟩

abbrev nBuf : Space → Nat
  | .hbm => 20
  | .vmem => 0
  | .smem => 0
  | _ => 0

abbrev bufTy : (tb : Table) → Fin (tcTables nBuf tb) → BufTy
  | .hbm, ⟨0, _⟩ => ⟨S65536, .f32⟩
  | .hbm, ⟨1, _⟩ => ⟨S16777216, .f32⟩
  | .hbm, ⟨2, _⟩ => ⟨S65536, .f32⟩
  | .hbm, ⟨3, _⟩ => ⟨S16777216, .i32⟩
  | .hbm, ⟨4, _⟩ => ⟨S16777216, .i32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S65536, .f32⟩
  | .hbm, ⟨17, _⟩ => ⟨S16777216x1, .i32⟩
  | .hbm, ⟨18, _⟩ => ⟨S65536, .f32⟩
  | .hbm, ⟨19, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S65536 : S_.BroadcastsInDim S65536 (![] : Fin 0 → Fin S65536.rank)
  gather_S65536_S16777216x1_S16777216_n_0_n_n_0_1_1_wf : GatherDims.WF S65536 S16777216x1 S16777216 [] [0] [] [0] [] 1 ![1]
  scatter_S65536_S16777216x1_S16777216_n_0_0_1_wf : ScatterDims.WF S65536 S16777216x1 S16777216 [] [0] [0] 1

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

class Facts : Prop extends Facts₀ where

variable [Facts]
-- ==== Proof.RegionProduct.lean ====
/-
  The kernel's one region multiplies two arrays of shape [131072, 128] entry by entry. Its grid has sixteen
  points; point `t` stages rows 8192·t … 8192·t + 8191 of both operands (all 128 lanes), multiplies the two
  blocks entry by entry, and writes the product back over the same rows of the result. The sixteen row blocks
  tile the result, so after the region the result array is the entrywise product of the two operand arrays as
  the region found them. Nothing here depends on what a float is: the statement holds at every instance.
-/
import proofs.«162600_j31525059952785_2_alg».proof.Proof.Gen.KernelIdeal.Frame
import Idealize.ShloMosaic.Lib.Pipeline.Value

noncomputable section

namespace Cert.KernelIdeal.Product

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's one load rectangle and one store rectangle start at the origin of the block. -/
theorem origin : (![0, 0] : Fin 2 → Nat) = fun _ => 0 := funext fun a => by fin_cases a <;> rfl

/-- The entrywise product of two arrays of the region's shape. -/
abbrev prod (a b : FVec F S131072x128 .f32) : FVec F S131072x128 .f32 := mulf a b

/-- The value the body stores is the entrywise product of the two blocks it loaded: the two shape casts in
    between keep the shape, so they change nothing. -/
theorem stored_eq (x0 x1 : Vec F S8192x128 .f32) : k0_pay1 x0 x1 = mulf x0 x1 := by
  unfold k0_pay1
  rw [shapeCast_self, shapeCast_self]

/-- All three windows are at the same block at every grid point, and that block is in lane block 0. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (1 : Fin 2) = 0 :=
  (by decide +kernel : ∀ t : Fin grid0.N, _)

/-- Every one of the sixteen row blocks is some grid point's. -/
theorem every_block : ∀ q : Fin 16, ∃ t : Fin cfg0.N, win0_2.index t = ![q.val, 0] :=
  (by decide +kernel : ∀ q : Fin 16, ∃ t : Fin grid0.N, win0_2.index t = ![q.val, 0])

/-- What grid point `t` writes back is block `t` of the entrywise product of the two operand arrays. -/
theorem written_back (c : Dev nD) (t : Fin cfg0.N) :
    (dats m 0 c).flushed 2 t = ((cfg0.win 2).blk t).view.read (Elt F) (prod (V m c main_v7) (V m c main_v8)) := by
  show (cfg0.win 2).cut (grid0.coords t) ((dats m 0 c).after 2 t) = _
  rw [after0_2]
  unfold out0_2
  rw [View.canon_unit_zero origin]
  simp only [View.ld_unit_zero (S := S8192x128) origin]
  rw [stored_eq]
  obtain ⟨e0, e1, e2, e3, e4⟩ := same_block t
  funext j
  show FloatOps.mulf (V m c main_v7 (((cfg0.win 0).blk t).view.emb j)) (V m c main_v8 (((cfg0.win 1).blk t).view.emb j))
    = FloatOps.mulf (V m c main_v7 (((cfg0.win 2).blk t).view.emb j)) (V m c main_v8 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the result array is in point `t`'s block exactly when each coordinate is in the block's range. -/
theorem mem_block (t : Fin cfg0.N) (i : S131072x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v9).slice (win0_2.rect t)).set ↔ _
  rw [View.set_slice_whole, Rect.mem_set_unit]
  exact Iff.rfl

/-- Row `r` of the result is written by the grid point whose block is number `r / 8192`: the blocks cover
    the whole array. -/
theorem covered (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := every_block ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- After the region the result array is the entrywise product of the two operand arrays. -/
theorem result_array (c : Dev nD) :
    (dats m 0 c).arrAt 2 cfg0.N = prod (V m c main_v7) (V m c main_v8) :=
  (dats m 0 c).arrAt_eq_of_cover 2 _ (fun t _ => written_back m c t) covered

end Cert.KernelIdeal.Product

end
-- ==== Proof.LibReshapeProduct.lean ====
/-
  A reshape only renumbers the entries of an array (row-major order is kept), so it commutes with every
  entrywise operation: reshaping two arrays, multiplying them entry by entry, and reshaping the product back
  gives the entrywise product of the two original arrays.
-/
import Idealize.ShloMosaic.Lib.Pipeline.Value

noncomputable section

namespace Cert.Lib.ReshapeProduct

open Idealize.ShloMosaic

variable {F : FTy → Type} [FloatOps F] {s t : Shape} {φ : FTy}

/-- The entrywise product of two reshaped arrays is the reshaped entrywise product: entry `j` of either side
    is the product of the two entries that `j` is the new number of. -/
theorem mulf_shapeCast (a b : FVec F s φ) (h : s.ShapeCasts t) :
    mulf (shapeCast t a h) (shapeCast t b h) = shapeCast t (mulf a b) h := rfl

/-- Reshape, multiply entry by entry, reshape back: the entrywise product of the original arrays. -/
theorem shapeCast_mulf_shapeCast (a b : FVec F s φ) (h : s.ShapeCasts t) (h' : t.ShapeCasts s) :
    shapeCast s (mulf (shapeCast t a h) (shapeCast t b h)) h' = mulf a b := by
  rw [mulf_shapeCast, shapeCast_shapeCast]

end Cert.Lib.ReshapeProduct

end
-- ==== Proof.KernelResult.lean ====
/-
  What the kernel program as a whole leaves in its result buffer, as one term of its five argument arrays.

  Before the region the host gathers `x[src]` (a negative index counted from the end, as jnp does) and reshapes
  the gathered values and the edge weights from [16777216] to [131072, 128]; the region multiplies the two
  reshaped arrays entry by entry; after the region the host reshapes the product back to [16777216], scatter-adds
  it into zeros at `dst`, and adds the bias. A reshape only renumbers entries, so reshaping, multiplying entry by
  entry and reshaping back is the entrywise product of the flat arrays: the result is
  `scatter_add(0, dst, x[src] · w) + bias`.
-/
import proofs.«162600_j31525059952785_2_alg».proof.Proof.Gen.KernelIdeal.Frame
import proofs.«162600_j31525059952785_2_alg».proof.Proof.RegionProduct
import proofs.«162600_j31525059952785_2_alg».proof.Proof.LibReshapeProduct
import Idealize.ShloMosaic.Lib.StableHlo.Run
import Idealize.ShloMosaic.Lib.Pipeline.Value

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- `x[src]`: each index below zero is first moved up by the table's length 65536, then the table is read there. -/
def gathered (x : FVec F S65536 .f32) (src : S16777216.Idx → Elt F .i32) : FVec F S16777216 .f32 :=
  Host.gather gather_S65536_S16777216x1_S16777216_n_0_n_n_0_1_1 x
    (broadcastInDim S16777216x1 ![0] bcast_S16777216_S16777216x1_0
      (select (cmpi .slt src (broadcastInDim S16777216 ![] bcast_S_S16777216 (constantI S_ 32 0#32)))
        (addi src (broadcastInDim S16777216 ![] bcast_S_S16777216 (constantI S_ 32 65536#32))) src))

/-- What both programs do with the per-edge products `p`: add them up per destination node, starting from zero,
    then add the bias. -/
def summed (p : FVec F S16777216 .f32) (dst : S16777216.Idx → Elt F .i32) (bias : FVec F S65536 .f32) : FVec F S65536 .f32 :=
  addf (Host.scatterAdd scatter_S65536_S16777216x1_S16777216_n_0_0_1
    (broadcastInDim S65536 ![] bcast_S_S65536 (constant S_ .f32 0x00000000#32))
    (broadcastInDim S16777216x1 ![0] bcast_S16777216_S16777216x1_0 dst) p) bias

variable (m : (ℓ : Loc nD τ sig) → Buf (Elt F) ℓ) (ρ : Dev nD → PrngReg)

/-- The region's first operand, as the region finds it: the gathered values, reshaped. -/
theorem operand0 (c : Dev nD) : (V m c main_v7 : FVec F S131072x128 .f32)
    = shapeCast S131072x128 (gathered (m ((c : Thread nD τ).loc main_arg0)) (m ((c : Thread nD τ).loc main_arg3))) shapeCasts_S16777216_S131072x128 := by
  show StableHlo.after hostOps0 (fun b => m (c, b)) (Proc.devRef .tc main_v7) = _
  after_results
  rfl

/-- The region's second operand: the edge weights, reshaped. -/
theorem operand1 (c : Dev nD) : (V m c main_v8 : FVec F S131072x128 .f32)
    = shapeCast S131072x128 (m ((c : Thread nD τ).loc main_arg1)) shapeCasts_S16777216_S131072x128 := by
  show StableHlo.after hostOps0 (fun b => m (c, b)) (Proc.devRef .tc main_v8) = _
  after_results
  rfl

/-- After the region its result array is the reshaped entrywise product of the gathered values and the edge weights. -/
theorem region_result (c : Dev nD) :
    Pipeline.withArrays (cfgs 0).spec c (V0 m c) (fun w => (dats m 0 c).arrAt w (cfgs 0).N) (Proc.devRef .tc main_v9)
      = shapeCast S131072x128 (mulf (gathered (m ((c : Thread nD τ).loc main_arg0)) (m ((c : Thread nD τ).loc main_arg3))) (m ((c : Thread nD τ).loc main_arg1))) shapeCasts_S16777216_S131072x128 :=
  (Pipeline.withArrays_arr spec0 launch0.win.arr_inj c _ _ 2).trans ((Product.result_array m c).trans (by
    rw [operand0 m c, operand1 m c]; rfl))

/-- The region leaves the destination indices as launched. -/
theorem kept_dst (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)

/-- The region leaves the bias as launched. -/
theorem kept_bias (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)

/-- The program's result buffer after the host lines that follow the region. -/
theorem result (c : Dev nD) :
    (Pipeline.afterTail₀ cfgs (dats m) 0 (V0 m) [hostOps1] c main_v14 : FVec F S65536 .f32)
      = summed (mulf (gathered (m ((c : Thread nD τ).loc main_arg0)) (m ((c : Thread nD τ).loc main_arg3))) (m ((c : Thread nD τ).loc main_arg1)))
          (m ((c : Thread nD τ).loc main_arg4)) (m ((c : Thread nD τ).loc main_arg2)) := by
  have h : (Pipeline.afterTail₀ cfgs (dats m) 0 (V0 m) [hostOps1] c main_v14 : FVec F S65536 .f32)
      = summed (shapeCast S16777216 (shapeCast S131072x128
            (mulf (gathered (m ((c : Thread nD τ).loc main_arg0)) (m ((c : Thread nD τ).loc main_arg3))) (m ((c : Thread nD τ).loc main_arg1)))
            shapeCasts_S16777216_S131072x128) shapeCasts_S131072x128_S16777216)
          (m ((c : Thread nD τ).loc main_arg4)) (m ((c : Thread nD τ).loc main_arg2)) := by
    unfold Pipeline.afterTail₀
    show StableHlo.after hostOps1 _ (Proc.devRef .tc main_v14) = _
    after_results
    rw [region_result m c, kept_dst m c, kept_bias m c]
    rfl
  rw [h, shapeCast_shapeCast]

/-- The run of the whole program: every weakly fair execution terminates with the result buffer at
    `scatter_add(0, dst, x[src] · w) + bias` and the five arguments as launched. -/
theorem run : θ_run defs (onTc (τ := τ) (main (F := F))) ⟨m, fun _ => 0, ρ⟩ fun r => ∀ c : Dev nD,
      r.2.mem ((c.tc : Thread nD τ).loc main_v14)
        = summed (mulf (gathered (m ((c.tc : Thread nD τ).loc main_arg0)) (m ((c.tc : Thread nD τ).loc main_arg3))) (m ((c.tc : Thread nD τ).loc main_arg1)))
            (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The kernel computes a message-passing step `out = scatter_add(0, dst, x[src] · w) + bias` over 16777216 edges and
  65536 nodes. It differs from the reference in one place only: the per-edge product `x[src] · w` is taken inside a
  tiled region, on the two factors reshaped to [131072, 128], sixteen blocks of 8192 rows each, and the product is
  reshaped back to a flat array. A reshape only renumbers entries, and the sixteen blocks tile the array, so the
  flat product the kernel hands to the scatter-add is, entry for entry, the product `x[src] · w` the reference
  forms directly; the gather before it and the scatter-add and bias after it are the same operations in both
  programs. The two results are therefore the same term of the five arguments at every float instance, the
  extended reals included, and no finiteness of the inputs is used.

  Proof/RegionProduct.lean: the region's result array is the entrywise product of its two operand arrays.
  Proof/LibReshapeProduct.lean: reshape, multiply entry by entry, reshape back is the entrywise product.
  Proof/KernelResult.lean: the whole kernel program's run, its result at `summed (x[src] · w) dst bias`.
  The reference's run is read off its printed operations (the generated run of the reference); its result term
  unfolds to the same `summed (x[src] · w) dst bias`.
-/
import proofs.«162600_j31525059952785_2_alg».proof.Defs
import proofs.«162600_j31525059952785_2_alg».proof.Proof.Gen.Kernel
import proofs.«162600_j31525059952785_2_alg».proof.Proof.Gen.Kernel.Skeleton
import proofs.«162600_j31525059952785_2_alg».proof.Proof.Gen.Kernel.Launch
import proofs.«162600_j31525059952785_2_alg».proof.Proof.Gen.Kernel.Points
import proofs.«162600_j31525059952785_2_alg».proof.Proof.Gen.Kernel.Frame
import proofs.«162600_j31525059952785_2_alg».proof.Proof.Gen.KernelIdeal
import proofs.«162600_j31525059952785_2_alg».proof.Proof.Gen.KernelIdeal.Skeleton
import proofs.«162600_j31525059952785_2_alg».proof.Proof.Gen.KernelIdeal.Launch
import proofs.«162600_j31525059952785_2_alg».proof.Proof.Gen.KernelIdeal.Points
import proofs.«162600_j31525059952785_2_alg».proof.Proof.Gen.KernelIdeal.Frame
import proofs.«162600_j31525059952785_2_alg».proof.Proof.Gen.ReferenceIdeal
import proofs.«162600_j31525059952785_2_alg».proof.Proof.Gen.Pre_finite_inputs
import proofs.«162600_j31525059952785_2_alg».proof.Proof.Gen.ReferenceIdeal.Run
import proofs.«162600_j31525059952785_2_alg».proof.Proof.Gen.ReferenceIdeal.Read
import proofs.«162600_j31525059952785_2_alg».proof.Proof.KernelResult
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's result, operation by operation, is `summed (x[src] · w) dst bias`: the same gather, the
    entrywise product, the same scatter-add into zeros and the same bias add. -/
theorem reference_result {F : FTy → Type} [FloatOps F]
    (x0 : FVec F Cert.KernelIdeal.S65536 .f32) (x1 : FVec F Cert.KernelIdeal.S16777216 .f32) (x2 : FVec F Cert.KernelIdeal.S65536 .f32)
    (x3 x4 : Cert.KernelIdeal.S16777216.Idx → Elt F .i32) :
    Cert.ReferenceIdeal.Read.val_main_v11 (F := F) x0 x1 x2 x3 x4
      = Cert.KernelIdeal.Result.summed (mulf (Cert.KernelIdeal.Result.gathered x0 x3) x1) x4 x2 := rfl

/-- Run from memories that agree on the five arguments, both programs end with their result buffers at
    `summed (x[src] · w) dst bias` of those arguments. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact reference_result _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
